-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x8192 : Shape := ⟨3, ![32, 64, 8192]⟩
abbrev S4096x8192 : Shape := ⟨2, ![4096, 8192]⟩
abbrev S_ : Shape := ⟨0, ![]⟩

class Facts : Prop where
  bcast_S_S32x64x8192 : S_.BroadcastsInDim S32x64x8192 (![] : Fin 0 → Fin S32x64x8192.rank)
  reducesTo_S32x64x8192_S_d0_1_2 : S32x64x8192.ReducesTo [0, 1, 2] S_
  h_S_ : 0 < S_.numel
  bcast_S_S4096x8192 : S_.BroadcastsInDim S4096x8192 (![] : Fin 0 → Fin S4096x8192.rank)
  reducesTo_S4096x8192_S_d0_1 : S4096x8192.ReducesTo [0, 1] S_

variable [Facts]

def fn {F : FTy → Type} [FloatOps F] (main_arg0 : FVec F S32x64x8192 .f32) (main_arg1 : FVec F S4096x8192 .f32) (main_arg2 : FVec F S4096x8192 .f32) : IVec S_ 1 :=
  let main_v0 : FVec F S32x64x8192 .f32 := Host.absf main_arg0
  let main_cst : FVec F S_ .f32 := constant S_ .f32 0x7F800000#32
  let main_v1 : FVec F S32x64x8192 .f32 := broadcastInDim S32x64x8192 ![] bcast_S_S32x64x8192 main_cst
  let main_v2 : IVec S32x64x8192 1 := cmpf .olt main_v0 main_v1
  let main_c : IVec S_ 1 := constantI S_ 1 1#1
  let main_v3 : IVec S_ 1 := (fun x v => Host.reduce IntOp.andi x v reducesTo_S32x64x8192_S_d0_1_2 h_S_) main_v2 main_c
  let main_v4 : FVec F S4096x8192 .f32 := Host.absf main_arg1
  let main_cst_0 : FVec F S_ .f32 := constant S_ .f32 0x7F800000#32
  let main_v5 : FVec F S4096x8192 .f32 := broadcastInDim S4096x8192 ![] bcast_S_S4096x8192 main_cst_0
  let main_v6 : IVec S4096x8192 1 := cmpf .olt main_v4 main_v5
  let main_c_1 : IVec S_ 1 := constantI S_ 1 1#1
  let main_v7 : IVec S_ 1 := (fun x v => Host.reduce IntOp.andi x v reducesTo_S4096x8192_S_d0_1 h_S_) main_v6 main_c_1
  let main_v8 : IVec S_ 1 := andi main_v3 main_v7
  let main_v9 : FVec F S4096x8192 .f32 := Host.absf main_arg2
  let main_cst_2 : FVec F S_ .f32 := constant S_ .f32 0x7F800000#32
  let main_v10 : FVec F S4096x8192 .f32 := broadcastInDim S4096x8192 ![] bcast_S_S4096x8192 main_cst_2
  let main_v11 : IVec S4096x8192 1 := cmpf .olt main_v9 main_v10
  let main_c_3 : IVec S_ 1 := constantI S_ 1 1#1
  let main_v12 : IVec S_ 1 := (fun x v => Host.reduce IntOp.andi x v reducesTo_S4096x8192_S_d0_1 h_S_) main_v11 main_c_3
  let main_v13 : IVec S_ 1 := andi main_v8 main_v12
  main_v13
-- ==== Kernel.lean ====
abbrev S32x64x8192 : Shape := ⟨3, ![32, 64, 8192]⟩
abbrev S4096x8192 : Shape := ⟨2, ![4096, 8192]⟩
abbrev S2048x8192 : Shape := ⟨2, ![2048, 8192]⟩
abbrev S2048x4096 : Shape := ⟨2, ![2048, 4096]⟩
abbrev S2048x256 : Shape := ⟨2, ![2048, 256]⟩
abbrev S1024x256 : Shape := ⟨2, ![1024, 256]⟩
abbrev S2048x1024 : Shape := ⟨2, ![2048, 1024]⟩
abbrev S32x64x4096 : Shape := ⟨3, ![32, 64, 4096]⟩

abbrev nBuf : Space → Nat
  | .hbm => 8
  | .vmem => 10
  | .smem => 0
  | _ => 0

abbrev bufTy : (tb : Table) → Fin (tcTables nBuf tb) → BufTy
  | .hbm, ⟨0, _⟩ => ⟨S32x64x8192, .f32⟩
  | .hbm, ⟨1, _⟩ => ⟨S4096x8192, .f32⟩
  | .hbm, ⟨2, _⟩ => ⟨S4096x8192, .f32⟩
  | .hbm, ⟨3, _⟩ => ⟨S2048x8192, .f32⟩
  | .hbm, ⟨4, _⟩ => ⟨S2048x4096, .f32⟩
  | .hbm, ⟨5, _⟩ => ⟨S2048x4096, .f32⟩
  | .hbm, ⟨6, _⟩ => ⟨S32x64x4096, .f32⟩
  | .hbm, ⟨7, _⟩ => ⟨S32x64x4096, .f32⟩
  | .local _ .vmem, ⟨0, _⟩ => ⟨S2048x256, .f32⟩
  | .local _ .vmem, ⟨1, _⟩ => ⟨S2048x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S2048x1024, .f32⟩
  | .local _ .vmem, ⟨7, _⟩ => ⟨S2048x1024, .f32⟩
  | .local _ .vmem, ⟨8, _⟩ => ⟨S2048x1024, .f32⟩
  | .local _ .vmem, ⟨9, _⟩ => ⟨S2048x1024, .f32⟩
  | _, _ => ⟨S32x64x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S32x64x8192_S2048x8192 : S32x64x8192.ShapeCasts S2048x8192
  inb_S2048x1024_S2048x1024_0_0 : ∀ a, (![0, 0] : Fin 2 → Nat) a + S2048x1024.size a ≤ S2048x1024.size a
  h_S2048x1024 : 0 < S2048x1024.numel
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  shapeCasts_S2048x1024_S2048x1024 : S2048x1024.ShapeCasts S2048x1024
  shapeCasts_S2048x4096_S32x64x4096 : S2048x4096.ShapeCasts S32x64x4096
  dot_S2048x256_S1024x256_S2048x1024_1_1_0_0_n_n_wf : DotDims.WF S2048x256 S1024x256 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S2048x8192.size a
  hwx0_0 : ∀ i : grid0.Coords, EltTy.bits .f32 = 32 ∨ (Rect.block (s := S2048x8192) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x8192.size a
  hwx0_1 : ∀ i : grid0.Coords, EltTy.bits .f32 = 32 ∨ (Rect.block (s := S4096x8192) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S4096x8192.size a
  hwx0_2 : ∀ i : grid0.Coords, EltTy.bits .f32 = 32 ∨ (Rect.block (s := S4096x8192) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S2048x4096.size a
  hwx0_3 : ∀ i : grid0.Coords, EltTy.bits .f32 = 32 ∨ (Rect.block (s := S2048x4096) S2048x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S2048x4096.size a
  hwx0_4 : ∀ i : grid0.Coords, EltTy.bits .f32 = 32 ∨ (Rect.block (s := S2048x4096) S2048x1024.size (cc0_transform_4 i) (hinb0_4 i)).WholeWords (EltTy.packing .f32)

variable [Facts₀]

def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf

abbrev win0_0 : Pipeline.Window sig grid0 :=
  Pipeline.Window.ofSpec (Memref.whole main_v0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S2048x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x64x8192 : Shape := ⟨3, ![32, 64, 8192]⟩
abbrev S4096x8192 : Shape := ⟨2, ![4096, 8192]⟩
abbrev S32x64x4096 : Shape := ⟨3, ![32, 64, 4096]⟩

abbrev nBuf : Space → Nat
  | .hbm => 5
  | .vmem => 0
  | .smem => 0
  | _ => 0

abbrev bufTy : (tb : Table) → Fin (tcTables nBuf tb) → BufTy
  | .hbm, ⟨0, _⟩ => ⟨S32x64x8192, .f32⟩
  | .hbm, ⟨1, _⟩ => ⟨S4096x8192, .f32⟩
  | .hbm, ⟨2, _⟩ => ⟨S4096x8192, .f32⟩
  | .hbm, ⟨3, _⟩ => ⟨S32x64x4096, .f32⟩
  | .hbm, ⟨4, _⟩ => ⟨S32x64x4096, .f32⟩
  | _, _ => ⟨S32x64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S32x64x8192_S4096x8192_S32x64x4096_2_1_01_0_n_n_wf : DotDims.WF S32x64x8192 S4096x8192 S32x64x4096 [2] [1] [0, 1] [0] [] []

variable [Facts₀]

def dot_S32x64x8192_S4096x8192_S32x64x4096_2_1_01_0_n_n : DotDims S32x64x8192 S4096x8192 S32x64x4096 where
  lhsContracting := [2]
  rhsContracting := [1]
  lhsNonContracting := [0, 1]
  rhsNonContracting := [0]
  lhsBatch := []
  rhsBatch := []
  wf := dot_S32x64x8192_S4096x8192_S32x64x4096_2_1_01_0_n_n_wf

class Facts : Prop extends Facts₀ where

variable [Facts]
-- ==== Proof.Body.lean ====
/-
  One grid step of the kernel, as values.

  A step holds a 2048 x 256 band of the signal matrix and the matching 1024 x 256 bands of the two filter matrices, and
  keeps two 2048 x 1024 running totals, one per filter. On the first band of a column tile the totals are reset to
  zero and the band's products are added to that zero; on every later band the band's products are added to the totals
  the step before left. Here each of the four cases (two totals, first band or later band) is read back from the stores
  the step makes: the total it leaves is "what was there (zero, or the previous total) plus this band's matrix product".
  Nothing here depends on how floats are read.
-/
import proofs.«168189_j3882650435603_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Body

open Cert.KernelIdeal Cert.KernelIdeal.Gen

variable {F : FTy → Type} [FloatOps F]

/-- The origin of a rank-2 buffer, as the constant-zero offset. -/
theorem origin2 : (![0, 0] : Fin 2 → Nat) = fun _ => 0 := funext fun a => by fin_cases a <;> rfl

/-- A later band, low-pass total: the previous total plus this band's product with the low-pass filter band. -/
theorem later_low (c : Dev nD) (i : grid0.Coords) (a2 : Memref sig .tc .vmem S2048x256 .f32) (h2 : a2.IsWhole)
    (a3 : Memref sig .tc .vmem S1024x256 .f32) (h3 : a3.IsWhole) (a4 : Memref sig .tc .vmem S1024x256 .f32) (h4 : a4.IsWhole)
    (a5 : Memref sig .tc .vmem S2048x1024 .f32) (h5 : a5.IsWhole) (a6 : Memref sig .tc .vmem S2048x1024 .f32) (h6 : a6.IsWhole)
    (hc : ¬cond0_0 i) (x0 : Vec F S2048x256 .f32) (x1 x2 : Vec F S1024x256 .f32) (xo3 xo4 : Vec F S2048x1024 .f32) :
    out0_B_3 c i a2 h2 a3 h3 a4 h4 a5 h5 a6 h6 hc x0 x1 x2 xo3 xo4 = k0_pay4 x0 x1 xo3 := by
  unfold out0_B_3
  rw [View.read_writes_eq_canon _ _ _ (cover0_B_3 c i a2 h2 a3 h3 a4 h4 a5 h5 a6 h6 hc x0 x1 x2 xo3 xo4)]
  unfold kernelRun0_B
  dsimp only
  rw [View.canon_unit_zero origin2]
  simp only [View.readAt_eq_ld, h2.read_unread, h3.read_unread, h5.read_unread, View.ld_unit_zero (S := S2048x256) origin2,
    View.ld_unit_zero (S := S1024x256) origin2, View.ld_unit_zero (S := S2048x1024) origin2]

/-- A later band, high-pass total: the previous total plus this band's product with the high-pass filter band. -/
theorem later_high (c : Dev nD) (i : grid0.Coords) (a2 : Memref sig .tc .vmem S2048x256 .f32) (h2 : a2.IsWhole)
    (a3 : Memref sig .tc .vmem S1024x256 .f32) (h3 : a3.IsWhole) (a4 : Memref sig .tc .vmem S1024x256 .f32) (h4 : a4.IsWhole)
    (a5 : Memref sig .tc .vmem S2048x1024 .f32) (h5 : a5.IsWhole) (a6 : Memref sig .tc .vmem S2048x1024 .f32) (h6 : a6.IsWhole)
    (hc : ¬cond0_0 i) (x0 : Vec F S2048x256 .f32) (x1 x2 : Vec F S1024x256 .f32) (xo3 xo4 : Vec F S2048x1024 .f32) :
    out0_B_4 c i a2 h2 a3 h3 a4 h4 a5 h5 a6 h6 hc x0 x1 x2 xo3 xo4 = k0_pay5 x0 x2 xo4 := by
  unfold out0_B_4
  rw [View.read_writes_eq_canon _ _ _ (cover0_B_4 c i a2 h2 a3 h3 a4 h4 a5 h5 a6 h6 hc x0 x1 x2 xo3 xo4)]
  unfold kernelRun0_B
  dsimp only
  rw [View.canon_unit_zero origin2]
  simp only [View.readAt_eq_ld, h2.read_unread, h4.read_unread, h6.read_unread, View.ld_unit_zero (S := S2048x256) origin2,
    View.ld_unit_zero (S := S1024x256) origin2, View.ld_unit_zero (S := S2048x1024) origin2]

/-- The first band, low-pass total: the zero block just stored plus this band's product with the low-pass filter band. -/
theorem first_low (c : Dev nD) (i : grid0.Coords) (a2 : Memref sig .tc .vmem S2048x256 .f32) (h2 : a2.IsWhole)
    (a3 : Memref sig .tc .vmem S1024x256 .f32) (h3 : a3.IsWhole) (a4 : Memref sig .tc .vmem S1024x256 .f32) (h4 : a4.IsWhole)
    (a5 : Memref sig .tc .vmem S2048x1024 .f32) (h5 : a5.IsWhole) (a6 : Memref sig .tc .vmem S2048x1024 .f32) (h6 : a6.IsWhole)
    (hc : cond0_0 i) (x0 : Vec F S2048x256 .f32) (x1 x2 : Vec F S1024x256 .f32) :
    out0_A_3 c i a2 h2 a3 h3 a4 h4 a5 h5 a6 h6 hc x0 x1 x2 = k0_pay4 x0 x1 k0_pay1 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_cons_unit_zero (S := S2048x1024) origin2, View.readCov_unit_zero (S := S2048x1024) _ origin2]
  simp only [View.readAt_eq_ld, h2.read_unread, h3.read_unread, View.ld_unit_zero (S := S2048x256) origin2,
    View.ld_unit_zero (S := S1024x256) origin2]

/-- The first band, high-pass total: the zero block just stored plus this band's product with the high-pass filter band. -/
theorem first_high (c : Dev nD) (i : grid0.Coords) (a2 : Memref sig .tc .vmem S2048x256 .f32) (h2 : a2.IsWhole)
    (a3 : Memref sig .tc .vmem S1024x256 .f32) (h3 : a3.IsWhole) (a4 : Memref sig .tc .vmem S1024x256 .f32) (h4 : a4.IsWhole)
    (a5 : Memref sig .tc .vmem S2048x1024 .f32) (h5 : a5.IsWhole) (a6 : Memref sig .tc .vmem S2048x1024 .f32) (h6 : a6.IsWhole)
    (hc : cond0_0 i) (x0 : Vec F S2048x256 .f32) (x1 x2 : Vec F S1024x256 .f32) :
    out0_A_4 c i a2 h2 a3 h3 a4 h4 a5 h5 a6 h6 hc x0 x1 x2 = k0_pay5 x0 x2 k0_pay2 := by
  unfold out0_A_4
  rw [View.read_writes_eq_canon _ _ _ (cover0_A_4 c i a2 h2 a3 h3 a4 h4 a5 h5 a6 h6 hc x0 x1 x2)]
  unfold kernelRun0_A
  dsimp only
  sl_unfold_words
  rw [View.canon_cons_unit_zero (S := S2048x1024) origin2, View.readCov_unit_zero (S := S2048x1024) _ origin2]
  simp only [View.readAt_eq_ld, h2.read_unread, h4.read_unread, View.ld_unit_zero (S := S2048x256) origin2,
    View.ld_unit_zero (S := S1024x256) origin2]

end Cert.KernelIdeal.Body

end
-- ==== Proof.Steps.lean ====
/-
  The two running totals after each grid point, one step at a time.

  At a point on the first band of its column tile, both totals are "zero plus this band's products". At any other
  point they are "the totals the point before left, plus this band's products". The bands are the point's own blocks
  of the signal and of the two filters.
-/
import proofs.«168189_j3882650435603_1_alg».proof.Proof.Body

set_option maxRecDepth 16384

noncomputable section

open Idealize.ShloMosaic Idealize.ShloMosaic.TcCoe Idealize.SL.Sem

namespace Cert.KernelIdeal.Steps

open Cert.KernelIdeal Cert.KernelIdeal.Gen

variable {F : FTy → Type} [FloatOps F]
variable (m : (ℓ : Loc nD τ sig) → Buf (Elt F) ℓ)

/-- A point on the first band: zero plus the band's products, for each filter. -/
theorem first (c : Dev nD) (t : Fin cfg0.N) (h0 : t.val % 32 = 0) :
    outsAt0 m c t.val t.isLt
      = (k0_pay4 (iblk m c 0 t) (iblk m c 1 t) k0_pay1, k0_pay5 (iblk m c 0 t) (iblk m c 2 t) k0_pay2) :=
by
  rw [outsAt0_A m c t h0]
  exact congrArg₂ Prod.mk
    (Body.first_low (F := F) c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t))
    (Body.first_high (F := F) c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t))

/-- Any other point: the totals of the point before plus the band's products, for each filter. -/
theorem later (c : Dev nD) (t : Fin cfg0.N) (h0 : ¬t.val % 32 = 0) :
    outsAt0 m c t.val t.isLt
      = (k0_pay4 (iblk m c 0 t) (iblk m c 1 t) (outsAt0 m c (t.val - 1) (Nat.lt_of_le_of_lt (Nat.sub_le _ _) t.isLt)).1,
         k0_pay5 (iblk m c 0 t) (iblk m c 2 t) (outsAt0 m c (t.val - 1) (Nat.lt_of_le_of_lt (Nat.sub_le _ _) t.isLt)).2) :=
by
  rw [outsAt0_B m c t h0]
  exact congrArg₂ Prod.mk
    (Body.later_low (F := F) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t)
      (outsAt0 m c (t.val - 1) (Nat.lt_of_le_of_lt (Nat.sub_le _ _) t.isLt)).1 (outsAt0 m c (t.val - 1) (Nat.lt_of_le_of_lt (Nat.sub_le _ _) t.isLt)).2)
    (Body.later_high (F := F) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t)
      (outsAt0 m c (t.val - 1) (Nat.lt_of_le_of_lt (Nat.sub_le _ _) t.isLt)).1 (outsAt0 m c (t.val - 1) (Nat.lt_of_le_of_lt (Nat.sub_le _ _) t.isLt)).2)

end Cert.KernelIdeal.Steps

end
-- ==== Proof.LibGram.lean ====
/-
  Three array forms read at an index written by coordinates, at the ideal instance (floats are extended reals).

  * A matrix product contracted on BOTH operands' last axes, `[M, K] × [N, K] → [M, N]` (a Gram matrix `X · Xᵀ` when the
    two operands are one array), into the zero accumulator: entry `(r, c)` is `∑ k, L (r, k) · R (c, k)`.
  * The sum of a column `[a, 1]` over its first axis, into `[1]`, from the neutral word: `∑ k, v (k, 0)`.
  * A `[1, 1]` value broadcast to `[a, b]`: every entry is the one value.
  Imports only the library.
-/
import Idealize.ShloMosaic.PureOps.Ideal.Laws
import Idealize.ShloMosaic.Lib.ValueIdx
import Idealize.ShloMosaic.Lib.Pipeline.Value

namespace Cert.LibGram

open Idealize.ShloMosaic Idealize.ShloMosaic.ValueIdx

variable {M K N : ℕ}

/-- The left operand's index keeps the output's row. -/
theorem lhsIdx_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- The left operand's index takes the contraction position as its column. -/
theorem lhsIdx_col (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

/-- The right operand's index takes the output's column as its row. -/
theorem rhsIdx_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- The right operand's index takes the contraction position as its column. -/
theorem rhsIdx_col (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- A product contracted on both last axes into the zero accumulator, at `(r, c)`: `∑ k, L (r, k) · R (c, k)`. -/
theorem matmul_transposedRhs_zero_apply {φ₁ φ₂ : FTy} (prec : Option ContractPrecision)
    (L : FVec Ideal ⟨2, ![M, K]⟩ φ₁) (R : FVec Ideal ⟨2, ![N, K]⟩ φ₂) (r : Fin M) (c : Fin N) :
    FloatOps.matmul (DotDims.transposedRhs M K N) prec L R (constant ⟨2, ![M, N]⟩ .f32 0x00000000#32) (ix2 r c)
      = ∑ k : Fin K, L (ix2 r k) * R (ix2 c k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r c) ((contrEquiv1 (DotDims.transposedRhs M K N) K rfl rfl).symm k) = ix2 r k :=
    funext fun a => Fin.ext (by
      match a with
      | ⟨0, _⟩ => exact lhsIdx_row _ _
      | ⟨1, _⟩ => exact (lhsIdx_col _ _).trans hk)
  have er : (DotDims.transposedRhs M K N).rhsIdx (ix2 r c) ((contrEquiv1 (DotDims.transposedRhs M K N) K rfl rfl).symm k) = ix2 c k :=
    funext fun a => Fin.ext (by
      match a with
      | ⟨0, _⟩ => exact rhsIdx_row _ _
      | ⟨1, _⟩ => exact (rhsIdx_col _ _).trans hk)
  rw [el, er]

variable {a b : ℕ}

/-- The reduced index `0` with the row `k` put back is `(k, 0)`. -/
theorem lift_first (h : (⟨2, ![a, 1]⟩ : Shape).Reduces [0] ⟨1, ![1]⟩) (u : Fin 1) (k : Fin a) :
    h.lift (ix1 u) k = ix2 k (0 : Fin 1) :=
  funext fun c => Fin.ext (by
    match c with
    | ⟨0, _⟩ => rfl
    | ⟨1, _⟩ =>
      have h1 : ((h.lift (ix1 u) k) 1).val < 1 := idx2_lt1 _
      show ((h.lift (ix1 u) k) 1).val = 0
      omega)

/-- A column summed over its first axis from the neutral word: `∑ k, v (k, 0)`. -/
theorem colSum_apply {φ : FTy} (src : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ) (u : Fin 1) :
    multiReduction .add [0] ⟨1, ![1]⟩ src acc h hφ hacc (ix1 u) = ∑ k : Fin a, src (ix2 k (0 : Fin 1)) :=
  (Ideal.multiReduction_add_single src acc h hφ hacc (ix1 u)).trans
    (Finset.sum_congr rfl fun k _ => congrArg src (lift_first h u k))

variable {α : Type}

/-- A `[1, 1]` value broadcast to `[a, b]` reads, everywhere, the one value. -/
theorem broadcastTo_11_ab_apply (v : (⟨2, ![1, 1]⟩ : Shape).Idx → α) (h : (⟨2, ![1, 1]⟩ : Shape).Broadcasts ⟨2, ![a, b]⟩)
    (p : Fin a) (q : Fin b) : broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

end Cert.LibGram
-- ==== Proof.Band.lean ====
/-
  One band's contribution, entry by entry, on the extended reals.

  Read as extended reals, rounding the operands to a shorter float format changes nothing, and the product of a
  2048 x 256 band of the signal with a 1024 x 256 band of a filter, contracted on the shared 256 columns and started
  from zero, has at row r and column c the sum over the 256 columns k of signal (r, k) times filter (c, k). So the
  total a step leaves at (r, c) is the total it found there plus that sum; and the block the first band starts from
  is zero at every entry.
-/
import proofs.«168189_j3882650435603_1_alg».proof.Proof.Gen.KernelIdeal.Skeleton
import proofs.«168189_j3882650435603_1_alg».proof.Proof.LibGram
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.KernelIdeal.Band

open Cert.KernelIdeal Cert.KernelIdeal.Gen

/-- The products of one band with one filter band, contracted on the 256 shared columns from zero, at (r, c). -/
theorem product_apply (x0 : Vec Ideal S2048x256 .f32) (x1 : Vec Ideal S1024x256 .f32) (r : Fin 2048) (c : Fin 1024) :
    matmul dot_S2048x256_S1024x256_S2048x1024_1_1_0_0_n_n none (k0_pay3 (F := Ideal) x0)
        (truncf .bf16 (x1 : FVec Ideal S1024x256 .f32) bitsLt_bf16_f32) (constant (F := Ideal) S2048x1024 .f32 0x00000000#32) (ix2 r c)
      = ∑ k : Fin 256, x0 (ix2 r k) * x1 (ix2 c k) :=
  (Cert.LibGram.matmul_transposedRhs_zero_apply (M := 2048) (K := 256) (N := 1024) none _ _ r c).trans
    (Finset.sum_congr rfl fun k _ => congrArg (· * x1 (ix2 c k)) (congrFun (shapeCast_self x0 shapeCasts_S2048x256_S2048x256) (ix2 r k)))

/-- The low-pass total after a step, at (r, c): what was there plus the band's 256 products. -/
theorem low_apply (x0 : Vec Ideal S2048x256 .f32) (x1 : Vec Ideal S1024x256 .f32) (acc : Vec Ideal S2048x1024 .f32)
    (r : Fin 2048) (c : Fin 1024) :
    k0_pay4 (F := Ideal) x0 x1 acc (ix2 r c) = acc (ix2 r c) + ∑ k : Fin 256, x0 (ix2 r k) * x1 (ix2 c k) := by
  unfold k0_pay4
  refine (addf_apply _ _ _).trans ?_
  refine congrArg₂ (· + ·) (congrFun (shapeCast_self acc shapeCasts_S2048x1024_S2048x1024) (ix2 r c)) ?_
  exact product_apply x0 x1 r c

/-- The high-pass total after a step, at (r, c): what was there plus the band's 256 products. -/
theorem high_apply (x0 : Vec Ideal S2048x256 .f32) (x2 : Vec Ideal S1024x256 .f32) (acc : Vec Ideal S2048x1024 .f32)
    (r : Fin 2048) (c : Fin 1024) :
    k0_pay5 (F := Ideal) x0 x2 acc (ix2 r c) = acc (ix2 r c) + ∑ k : Fin 256, x0 (ix2 r k) * x2 (ix2 c k) := by
  unfold k0_pay5
  refine (addf_apply _ _ _).trans ?_
  refine congrArg₂ (· + ·) (congrFun (shapeCast_self acc shapeCasts_S2048x1024_S2048x1024) (ix2 r c)) ?_
  exact product_apply x0 x2 r c

/-- The block the low-pass total is reset to is zero everywhere. -/
theorem reset_low_apply (j : S2048x1024.Idx) : k0_pay1 (F := Ideal) j = 0 := Ideal.ofBits_zero_f32

/-- The block the high-pass total is reset to is zero everywhere. -/
theorem reset_high_apply (j : S2048x1024.Idx) : k0_pay2 (F := Ideal) j = 0 := Ideal.ofBits_zero_f32

end Cert.KernelIdeal.Band

end
-- ==== Proof.Blocks.lean ====
/-
  The blocks a grid step works on, in coordinates.

  The grid has 4 x 32 points; point t is column tile t / 32 and band t % 32. At point t the signal window holds all
  2048 rows of columns (t % 32) * 256 ... + 255 of the signal matrix; each filter window holds rows (t / 32) * 1024 ...
  + 1023 of the same columns of its filter; each result window is all 2048 rows of columns (t / 32) * 1024 ... + 1023
  of its result matrix. The signal matrix the kernel sees is the 32 x 64 x 8192 input with its two leading axes merged
  in row-major order; the filters are the inputs as given.
-/
import proofs.«168189_j3882650435603_1_alg».proof.Proof.Gen.KernelIdeal.Frame.Runs
import Idealize.ShloMosaic.Lib.StableHlo.Run
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- Which block each window is on at point t: the signal at column band t % 32; the filters at row tile t / 32 and
    column band t % 32; the results at column tile t / 32. Decided over the 128 points. -/
theorem idx_facts : ∀ t : Fin cfg0.N,
    win0_0.index t (0 : Fin 2) = 0 ∧ win0_0.index t (1 : Fin 2) = t.val % 32
    ∧ win0_1.index t (0 : Fin 2) = t.val / 32 ∧ win0_1.index t (1 : Fin 2) = t.val % 32
    ∧ win0_2.index t (0 : Fin 2) = t.val / 32 ∧ win0_2.index t (1 : Fin 2) = t.val % 32
    ∧ win0_3.index t (0 : Fin 2) = 0 ∧ win0_3.index t (1 : Fin 2) = t.val / 32
    ∧ win0_4.index t (0 : Fin 2) = 0 ∧ win0_4.index t (1 : Fin 2) = t.val / 32 :=
  (by decide +kernel : ∀ t : Fin grid0.N, _)

/-- The signal matrix the region finds: the input with its two leading axes merged. -/
theorem entry_signal (c : Dev nD) :
    (V m c main_v0 : S2048x8192.Idx → Elt F .f32)
      = shapeCast S2048x8192 (m ((c : Thread nD τ).loc main_arg0)) shapeCasts_S32x64x8192_S2048x8192 := by
  show StableHlo.after hostOps0 (fun b => m (c, b)) (Proc.devRef .tc main_v0) = _
  after_results
  rfl

/-- The signal window's block at a point of band kt, at (r, k): the signal matrix at (r, kt * 256 + k). -/
theorem signal_block (c : Dev nD) (t : Fin cfg0.N) (kt : ℕ) (hkt : t.val % 32 = kt) (r : Fin 2048) (k : Fin 256)
    (hb : kt * 256 + k.val < 8192) :
    (iblk m c 0 t : Vec F S2048x256 .f32) (ix2 r k) = V m c main_v0 (ix2 r ⟨kt * 256 + k.val, hb⟩) := by
  unfold iblk
  rw [View.read_apply]
  show V m c main_v0 (((cfg0.win 0).blk t).view.emb (ix2 r k)) = V m c main_v0 _
  refine congrArg (V m c main_v0) ?_
  obtain ⟨e0, e1, -⟩ := idx_facts t
  funext a; apply Fin.ext
  match a with
  | ⟨0, _⟩ => show win0_0.index t (0 : Fin 2) * 2048 + 1 * r.val = r.val; omega
  | ⟨1, _⟩ => show win0_0.index t (1 : Fin 2) * 256 + 1 * k.val = kt * 256 + k.val; omega

/-- The low-pass filter window's block at a point of tile nt and band kt, at (q, k): the filter at (nt * 1024 + q, kt * 256 + k). -/
theorem low_block (c : Dev nD) (t : Fin cfg0.N) (nt kt : ℕ) (hnt : t.val / 32 = nt) (hkt : t.val % 32 = kt) (q : Fin 1024) (k : Fin 256)
    (ha : nt * 1024 + q.val < 4096) (hb : kt * 256 + k.val < 8192) :
    (iblk m c 1 t : Vec F S1024x256 .f32) (ix2 q k) = V m c main_arg1 (ix2 ⟨nt * 1024 + q.val, ha⟩ ⟨kt * 256 + k.val, hb⟩) := by
  unfold iblk
  rw [View.read_apply]
  show V m c main_arg1 (((cfg0.win 1).blk t).view.emb (ix2 q k)) = V m c main_arg1 _
  refine congrArg (V m c main_arg1) ?_
  obtain ⟨-, -, e0, e1, -⟩ := idx_facts t
  funext a; apply Fin.ext
  match a with
  | ⟨0, _⟩ => show win0_1.index t (0 : Fin 2) * 1024 + 1 * q.val = nt * 1024 + q.val; omega
  | ⟨1, _⟩ => show win0_1.index t (1 : Fin 2) * 256 + 1 * k.val = kt * 256 + k.val; omega

/-- The high-pass filter window's block, likewise. -/
theorem high_block (c : Dev nD) (t : Fin cfg0.N) (nt kt : ℕ) (hnt : t.val / 32 = nt) (hkt : t.val % 32 = kt) (q : Fin 1024) (k : Fin 256)
    (ha : nt * 1024 + q.val < 4096) (hb : kt * 256 + k.val < 8192) :
    (iblk m c 2 t : Vec F S1024x256 .f32) (ix2 q k) = V m c main_arg2 (ix2 ⟨nt * 1024 + q.val, ha⟩ ⟨kt * 256 + k.val, hb⟩) := by
  unfold iblk
  rw [View.read_apply]
  show V m c main_arg2 (((cfg0.win 2).blk t).view.emb (ix2 q k)) = V m c main_arg2 _
  refine congrArg (V m c main_arg2) ?_
  obtain ⟨-, -, -, -, e0, e1, -⟩ := idx_facts t
  funext a; apply Fin.ext
  match a with
  | ⟨0, _⟩ => show win0_2.index t (0 : Fin 2) * 1024 + 1 * q.val = nt * 1024 + q.val; omega
  | ⟨1, _⟩ => show win0_2.index t (1 : Fin 2) * 256 + 1 * k.val = kt * 256 + k.val; omega

end Cert.KernelIdeal.Blocks

end
-- ==== Proof.LibBlockSum.lean ====
/-
  Summing a sequence block by block.

  A sequence of n * w terms of an additive commutative monoid is cut into n consecutive blocks of w terms: block j holds
  the terms at positions j * w + k for k below w. The running total that starts from zero and adds one block's sum after
  another, nested to the left as ((0 + B0) + B1) + ..., ends at the sum of the whole sequence: every position below n * w
  is j * w + k for exactly one pair (j, k), so the sum over the positions is the sum over the pairs, block by block.
  The instance for four blocks of 1024 terms of a sequence of 4096 terms is stated with literal sizes.
-/
import Mathlib.Algebra.BigOperators.Fin

namespace Cert.BlockSum

open scoped BigOperators

variable {M : Type*} [AddCommMonoid M]

/-- Position k of block j lies in the sequence: j * w + k is below n * w when j is below n and k below w. -/
theorem idx_lt {n w : ℕ} (j : Fin n) (k : Fin w) : j.val * w + k.val < n * w :=
  calc j.val * w + k.val < j.val * w + w := Nat.add_lt_add_left k.isLt _
    _ = (j.val + 1) * w := (Nat.succ_mul _ _).symm
    _ ≤ n * w := Nat.mul_le_mul_right _ j.isLt

/-- The sum of block j: the w terms at positions j * w + k. -/
def blockSum (w : ℕ) {n : ℕ} (f : Fin (n * w) → M) (j : Fin n) : M :=
  ∑ k : Fin w, f ⟨j.val * w + k.val, idx_lt j k⟩

/-- The running total after the first m blocks, accumulated block by block from zero and nested to the left:
    ((0 + B0) + B1) + ... -/
def accBlocks (w : ℕ) {n : ℕ} (f : Fin (n * w) → M) : (m : ℕ) → m ≤ n → M
  | 0, _ => 0
  | m + 1, h => accBlocks w f m (Nat.le_of_succ_le h) + blockSum w f ⟨m, h⟩

/-- The running total after m blocks is the sum of the first m blocks' sums. -/
theorem accBlocks_eq_sum (w : ℕ) {n : ℕ} (f : Fin (n * w) → M) :
    ∀ (m : ℕ) (h : m ≤ n), accBlocks w f m h = ∑ j : Fin m, blockSum w f ⟨j.val, Nat.lt_of_lt_of_le j.isLt h⟩
  | 0, _ => (Finset.sum_empty).symm
  | m + 1, h => by
    rw [accBlocks, accBlocks_eq_sum w f m (Nat.le_of_succ_le h), Fin.sum_univ_castSucc]
    rfl

/-- The blocks' sums add up to the sum of the whole sequence: the positions below n * w are the pairs (block, place in
    the block). -/
theorem sum_blockSum (w : ℕ) {n : ℕ} (f : Fin (n * w) → M) : ∑ j : Fin n, blockSum w f j = ∑ t : Fin (n * w), f t := by
  rw [← Equiv.sum_comp finProdFinEquiv f, Fintype.sum_prod_type]
  refine Finset.sum_congr rfl fun j _ => Finset.sum_congr rfl fun k _ => congrArg f (Fin.ext ?_)
  show j.val * w + k.val = k.val + w * j.val
  rw [Nat.add_comm, Nat.mul_comm]

/-- Accumulating all n blocks from zero gives the sum of the whole sequence. -/
theorem accBlocks_all (w : ℕ) {n : ℕ} (f : Fin (n * w) → M) : accBlocks w f n le_rfl = ∑ t : Fin (n * w), f t :=
  (accBlocks_eq_sum w f n le_rfl).trans (sum_blockSum w f)

/-! ## Four blocks of 1024 terms -/

/-- The sum of block j of a sequence of 4096 terms cut into four blocks of 1024: the terms at positions j * 1024 + k. -/
def blockSum4 (f : Fin 4096 → M) (j : Fin 4) : M :=
  ∑ k : Fin 1024, f ⟨j.val * 1024 + k.val, by have := j.isLt; have := k.isLt; omega⟩

/-- With the literal sizes, a block's sum is the general one (4 * 1024 is 4096). -/
theorem blockSum4_eq (f : Fin 4096 → M) (j : Fin 4) : blockSum4 f j = blockSum 1024 (n := 4) f j := rfl

/-- The four blocks' sums, accumulated from zero and nested to the left, are the sum of all 4096 terms. -/
theorem sum_four_blocks (f : Fin 4096 → M) :
    (((0 + blockSum4 f 0) + blockSum4 f 1) + blockSum4 f 2) + blockSum4 f 3 = ∑ t : Fin 4096, f t := by
  rw [zero_add, blockSum4_eq, blockSum4_eq, blockSum4_eq, blockSum4_eq]
  exact (Fin.sum_univ_four (fun j : Fin 4 => blockSum 1024 (n := 4) f j)).symm.trans (sum_blockSum 1024 (n := 4) f)

end Cert.BlockSum
-- ==== Proof.Spec.lean ====
/-
  The filter-bank product, entry by entry, and its evaluation band by band.

  The signal is a 2048 x 8192 matrix X (2048 = 32 * 64 rows, one per batch-and-channel pair, in row-major order) and a
  filter is a 4096 x 8192 matrix B. Entry (r, n) of the result is the contraction of row r of X with row n of B: the sum
  over the 8192 columns l of X (r, l) * B (n, l). Cut the 8192 columns into 32 bands of 256. Starting from zero and
  adding one band's 256 products after another gives, after all 32 bands, that same sum: only the order and grouping of
  the additions differ, and addition on the extended reals is commutative and associative, infinite values included.
-/
import proofs.«168189_j3882650435603_1_alg».proof.Proof.LibBlockSum
import Idealize.ShloMosaic.PureOps.Ideal
import Idealize.ShloMosaic.Lib.ValueIdx

noncomputable section

open Idealize.ShloMosaic Idealize.ShloMosaic.ValueIdx

namespace Cert.FilterBank

/-- The signal as a matrix, a filter, and one result in matrix form. -/
abbrev Signal : Type := (⟨2, ![2048, 8192]⟩ : Shape).Idx → EReal
abbrev Filter : Type := (⟨2, ![4096, 8192]⟩ : Shape).Idx → EReal

/-- Column l of the 32 * 256 columns, as a column of the 8192. -/
abbrev col (l : Fin (32 * 256)) : Fin 8192 := ⟨l.val, l.isLt⟩

/-- The 8192 terms of entry (r, n): signal row r times filter row n, column by column. -/
def terms (X : Signal) (B : Filter) (r : Fin 2048) (n : Fin 4096) : Fin (32 * 256) → EReal :=
  fun l => X (ix2 r (col l)) * B (ix2 n (col l))

/-- Entry (r, n) of the result: the contraction of signal row r with filter row n. -/
def entry (X : Signal) (B : Filter) (r : Fin 2048) (n : Fin 4096) : EReal :=
  ∑ l : Fin 8192, X (ix2 r l) * B (ix2 n l)

/-- The running total of entry (r, n) after the first b bands, from zero, one band after another. -/
def total (X : Signal) (B : Filter) (r : Fin 2048) (n : Fin 4096) (b : ℕ) (hb : b ≤ 32) : EReal :=
  Cert.BlockSum.accBlocks 256 (terms X B r n) b hb

/-- Before any band the total is zero. -/
theorem total_zero (X : Signal) (B : Filter) (r : Fin 2048) (n : Fin 4096) (hb : 0 ≤ 32) : total X B r n 0 hb = 0 := rfl

/-- One more band adds that band's 256 products: columns b * 256 + k. -/
theorem total_succ (X : Signal) (B : Filter) (r : Fin 2048) (n : Fin 4096) (b : ℕ) (hb : b + 1 ≤ 32) :
    total X B r n (b + 1) hb = total X B r n b (Nat.le_of_succ_le hb)
      + ∑ k : Fin 256, X (ix2 r ⟨b * 256 + k.val, by have := k.isLt; omega⟩) * B (ix2 n ⟨b * 256 + k.val, by have := k.isLt; omega⟩) := rfl

/-- After all 32 bands the total is the entry. -/
theorem total_all (X : Signal) (B : Filter) (r : Fin 2048) (n : Fin 4096) : total X B r n 32 le_rfl = entry X B r n :=
  Cert.BlockSum.accBlocks_all 256 (n := 32) (terms X B r n)

/-- The input as given: 32 x 64 rows of 8192 samples. -/
abbrev Input : Type := (⟨3, ![32, 64, 8192]⟩ : Shape).Idx → EReal

/-- The result as the programs return it: at (p, q, n), row (p, q) of the input contracted with row n of the filter. -/
def result (x : Input) (B : Filter) : (⟨3, ![32, 64, 4096]⟩ : Shape).Idx → EReal :=
  fun i => ∑ l : Fin 8192, x (ix3 (i 0) (i 1) l) * B (ix2 (i 2) l)

end Cert.FilterBank

end
-- ==== Proof.Totals.lean ====
/-
  The running totals the kernel keeps are the specification's running totals.

  Fix a column tile nt of the result and an entry (r, q) of the tile. Going through the tile's 32 bands in order, the
  total the kernel holds at (r, q) after band kt is the sum, from zero, of the first kt + 1 bands' products of signal
  row r with filter row nt * 1024 + q. After the last band it is the whole contraction: the entry of the result.
-/
import proofs.«168189_j3882650435603_1_alg».proof.Proof.Steps
import proofs.«168189_j3882650435603_1_alg».proof.Proof.Band
import proofs.«168189_j3882650435603_1_alg».proof.Proof.Blocks
import proofs.«168189_j3882650435603_1_alg».proof.Proof.Spec

set_option maxRecDepth 16384

noncomputable section

open Idealize.ShloMosaic Idealize.ShloMosaic.TcCoe Idealize.SL.Sem Idealize.ShloMosaic.ValueIdx

namespace Cert.KernelIdeal.Totals

open Cert.KernelIdeal Cert.KernelIdeal.Gen Cert.FilterBank

variable (m : (ℓ : Loc nD τ sig) → Buf (Elt Ideal) ℓ)

/-- Column q of column tile nt of a result: column nt * 1024 + q of the 4096. -/
abbrev outCol (nt : Fin 4) (q : Fin 1024) : Fin 4096 := ⟨nt.val * 1024 + q.val, by have := nt.isLt; have := q.isLt; omega⟩

/-- The low-pass total after the point of column tile nt and band kt, at (r, q): the running total of entry
    (r, nt * 1024 + q) after kt + 1 bands. By induction on the band: the first band adds its products to zero, each
    later band to what the band before left. -/
theorem low_total (c : Dev nD) (nt : Fin 4) (r : Fin 2048) (q : Fin 1024) :
    ∀ (kt : ℕ) (hk : kt + 1 ≤ 32) (h : nt.val * 32 + kt < cfg0.N),
      (outsAt0 m c (nt.val * 32 + kt) h).1 (ix2 r q)
        = total (V m c main_v0) (V m c main_arg1) r (outCol nt q) (kt + 1) hk
  | 0, hk, h => by
    have hnt := nt.isLt
    have h0 : (⟨nt.val * 32 + 0, h⟩ : Fin cfg0.N).val % 32 = 0 := by dsimp only; omega
    refine (congrFun (congrArg Prod.fst (Steps.first m c (⟨nt.val * 32 + 0, h⟩ : Fin cfg0.N) h0)) (ix2 r q)).trans ?_
    refine (Band.low_apply (iblk m c 0 (⟨nt.val * 32 + 0, h⟩ : Fin cfg0.N)) (iblk m c 1 (⟨nt.val * 32 + 0, h⟩ : Fin cfg0.N)) (k0_pay1 (F := Ideal)) r q).trans ?_
    rw [total_succ, total_zero, Band.reset_low_apply]
    refine congrArg (0 + ·) (Finset.sum_congr rfl fun k _ => ?_)
    exact congrArg₂ (· * ·)
      (Blocks.signal_block m c (⟨nt.val * 32 + 0, h⟩ : Fin cfg0.N) 0 (by dsimp only; omega) r k _)
      (Blocks.low_block m c (⟨nt.val * 32 + 0, h⟩ : Fin cfg0.N) nt.val 0 (by dsimp only; omega) (by dsimp only; omega) q k _ _)
  | kt + 1, hk, h => by
    have hnt := nt.isLt
    have hB : ¬(⟨nt.val * 32 + (kt + 1), h⟩ : Fin cfg0.N).val % 32 = 0 := by dsimp only; omega
    refine (congrFun (congrArg Prod.fst (Steps.later m c (⟨nt.val * 32 + (kt + 1), h⟩ : Fin cfg0.N) hB)) (ix2 r q)).trans ?_
    refine (Band.low_apply (iblk m c 0 (⟨nt.val * 32 + (kt + 1), h⟩ : Fin cfg0.N)) (iblk m c 1 (⟨nt.val * 32 + (kt + 1), h⟩ : Fin cfg0.N)) _ r q).trans ?_
    rw [total_succ]
    refine congrArg₂ (· + ·) ?_ (Finset.sum_congr rfl fun k _ => ?_)
    · exact low_total c nt r q kt (Nat.le_of_succ_le hk) (Nat.lt_of_succ_lt h)
    · exact congrArg₂ (· * ·)
        (Blocks.signal_block m c (⟨nt.val * 32 + (kt + 1), h⟩ : Fin cfg0.N) (kt + 1) (by dsimp only; omega) r k _)
        (Blocks.low_block m c (⟨nt.val * 32 + (kt + 1), h⟩ : Fin cfg0.N) nt.val (kt + 1) (by dsimp only; omega) (by dsimp only; omega) q k _ _)

/-- The high-pass total after the point of column tile nt and band kt, at (r, q): the running total of entry
    (r, nt * 1024 + q) after kt + 1 bands. By induction on the band: the first band adds its products to zero, each
    later band to what the band before left. -/
theorem high_total (c : Dev nD) (nt : Fin 4) (r : Fin 2048) (q : Fin 1024) :
    ∀ (kt : ℕ) (hk : kt + 1 ≤ 32) (h : nt.val * 32 + kt < cfg0.N),
      (outsAt0 m c (nt.val * 32 + kt) h).2 (ix2 r q)
        = total (V m c main_v0) (V m c main_arg2) r (outCol nt q) (kt + 1) hk
  | 0, hk, h => by
    have hnt := nt.isLt
    have h0 : (⟨nt.val * 32 + 0, h⟩ : Fin cfg0.N).val % 32 = 0 := by dsimp only; omega
    refine (congrFun (congrArg Prod.snd (Steps.first m c (⟨nt.val * 32 + 0, h⟩ : Fin cfg0.N) h0)) (ix2 r q)).trans ?_
    refine (Band.high_apply (iblk m c 0 (⟨nt.val * 32 + 0, h⟩ : Fin cfg0.N)) (iblk m c 2 (⟨nt.val * 32 + 0, h⟩ : Fin cfg0.N)) (k0_pay2 (F := Ideal)) r q).trans ?_
    rw [total_succ, total_zero, Band.reset_high_apply]
    refine congrArg (0 + ·) (Finset.sum_congr rfl fun k _ => ?_)
    exact congrArg₂ (· * ·)
      (Blocks.signal_block m c (⟨nt.val * 32 + 0, h⟩ : Fin cfg0.N) 0 (by dsimp only; omega) r k _)
      (Blocks.high_block m c (⟨nt.val * 32 + 0, h⟩ : Fin cfg0.N) nt.val 0 (by dsimp only; omega) (by dsimp only; omega) q k _ _)
  | kt + 1, hk, h => by
    have hnt := nt.isLt
    have hB : ¬(⟨nt.val * 32 + (kt + 1), h⟩ : Fin cfg0.N).val % 32 = 0 := by dsimp only; omega
    refine (congrFun (congrArg Prod.snd (Steps.later m c (⟨nt.val * 32 + (kt + 1), h⟩ : Fin cfg0.N) hB)) (ix2 r q)).trans ?_
    refine (Band.high_apply (iblk m c 0 (⟨nt.val * 32 + (kt + 1), h⟩ : Fin cfg0.N)) (iblk m c 2 (⟨nt.val * 32 + (kt + 1), h⟩ : Fin cfg0.N)) _ r q).trans ?_
    rw [total_succ]
    refine congrArg₂ (· + ·) ?_ (Finset.sum_congr rfl fun k _ => ?_)
    · exact high_total c nt r q kt (Nat.le_of_succ_le hk) (Nat.lt_of_succ_lt h)
    · exact congrArg₂ (· * ·)
        (Blocks.signal_block m c (⟨nt.val * 32 + (kt + 1), h⟩ : Fin cfg0.N) (kt + 1) (by dsimp only; omega) r k _)
        (Blocks.high_block m c (⟨nt.val * 32 + (kt + 1), h⟩ : Fin cfg0.N) nt.val (kt + 1) (by dsimp only; omega) (by dsimp only; omega) q k _ _)

/-- After the tile's last band the low-pass total at (r, q) is entry (r, nt * 1024 + q) of the low-pass result. -/
theorem low_last (c : Dev nD) (nt : Fin 4) (r : Fin 2048) (q : Fin 1024) (h : nt.val * 32 + 31 < cfg0.N) :
    (outsAt0 m c (nt.val * 32 + 31) h).1 (ix2 r q) = entry (V m c main_v0) (V m c main_arg1) r (outCol nt q) :=
  (low_total m c nt r q 31 le_rfl h).trans (total_all _ _ r (outCol nt q))

/-- After the tile's last band the high-pass total at (r, q) is entry (r, nt * 1024 + q) of the high-pass result. -/
theorem high_last (c : Dev nD) (nt : Fin 4) (r : Fin 2048) (q : Fin 1024) (h : nt.val * 32 + 31 < cfg0.N) :
    (outsAt0 m c (nt.val * 32 + 31) h).2 (ix2 r q) = entry (V m c main_v0) (V m c main_arg2) r (outCol nt q) :=
  (high_total m c nt r q 31 le_rfl h).trans (total_all _ _ r (outCol nt q))

end Cert.KernelIdeal.Totals

end
-- ==== Proof.LibFlatten.lean ====
/-
  Two leading axes merged into one, or one split into two, by a shape cast, read at an index written by coordinates.

  A shape cast keeps the row-major position. Between `[a, b, c]` and `[n, c]` with `n = a · b`, position
  `((i · b) + j) · c + k` is row `r = i · b + j`, column `k`: the cast in either direction pairs `(i, j, k)` with
  `(r, k)`. The merged extent is a separate letter `n` so that the lemmas apply where it is printed as one numeral.
-/
import Idealize.ShloMosaic.Lib.Pipeline.Value
import Idealize.ShloMosaic.Lib.ValueIdx

namespace Cert.LibFlatten

open Idealize.ShloMosaic Idealize.ShloMosaic.ValueIdx

variable {α : Type}

/-- An `[a, b, c]` array cast to `[n, c]` reads, at `(r, k)` with `r = i · b + j`, the operand at `(i, j, k)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- An `[n, c]` array cast to `[a, b, c]` reads, at `(i, j, k)`, the operand at `(r, k)` with `r = i · b + j`. -/
theorem shapeCast_nc_abc_apply {a b c n : ℕ} (y : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) :
    shapeCast ⟨3, ![a, b, c]⟩ y h (ix3 i j k) = y (ix2 r k) :=
  shapeCast_apply y h _ _ (by
    rw [Shape.rowMajor_val_three, Shape.rowMajor_val_two]
    show r.val * c + k.val = (i.val * b + j.val) * c + k.val
    rw [hr])

end Cert.LibFlatten
-- ==== Proof.Arrays.lean ====
/-
  From the running totals to the two result arrays.

  A result window is written back only after the last band of its column tile (points 31, 63, 95, 127), and what it
  writes then is a finished tile: all 2048 rows of 1024 columns of the result matrix. The four tiles cover the 4096
  columns, so each result array ends holding its whole result matrix. The program then splits the 2048 rows back into
  32 x 64, undoing the merge it made of the input's leading axes before the kernel: entry (p, q, n) of what it returns
  is the contraction of row (p, q) of the input as given with row n of the filter.
-/
import proofs.«168189_j3882650435603_1_alg».proof.Proof.Totals
import proofs.«168189_j3882650435603_1_alg».proof.Proof.LibFlatten
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen Cert.FilterBank

variable (m : (ℓ : Loc nD τ sig) → Buf (Elt Ideal) ℓ) (ρ : Dev nD → PrngReg)

/-- The totals after a point depend on the point's number only. -/
theorem outsAt0_congr (c : Dev nD) {n n' : ℕ} (e : n = n') (h : n < cfg0.N) (h' : n' < cfg0.N) :
    outsAt0 m c n h = outsAt0 m c n' h' := by
  subst e; rfl

/-- The low-pass result in matrix form: entry (r, n) is signal row r contracted with row n of the low-pass filter. -/
def lowMatrix (c : Dev nD) : S2048x4096.Idx → EReal :=
  fun i => entry (V m c main_v0) (V m c main_arg1) (i 0) (i 1)

/-- A finished low-pass tile: after the last band of column tile t / 32 the total at j is the result matrix at
    (row of j, t / 32 * 1024 + column of j). -/
theorem low_tile (c : Dev nD) (t : Fin cfg0.N) (h31 : t.val % 32 = 31) (j : S2048x1024.Idx) (i : S2048x4096.Idx)
    (hi0 : (i 0).val = (j 0).val) (hi1 : (i 1).val = t.val / 32 * 1024 + (j 1).val) :
    (outsAt0 m c t.val t.isLt).1 j = lowMatrix m c i := by
  have hN : cfg0.N = 128 := N_0
  have ht := t.isLt
  obtain ⟨r, q, rfl⟩ : ∃ (r : Fin 2048) (q : Fin 1024), j = ix2 r q := ⟨j 0, j 1, eq_ix2 j⟩
  have et : t.val = (⟨t.val / 32, by omega⟩ : Fin 4).val * 32 + 31 := by dsimp only; omega
  refine (congrFun (congrArg Prod.fst (outsAt0_congr m c et t.isLt (by dsimp only; omega))) (ix2 r q)).trans ?_
  refine (Totals.low_last m c ⟨t.val / 32, by omega⟩ r q _).trans ?_
  unfold lowMatrix
  exact congrArg₂ (entry _ _) (Fin.ext hi0.symm) (Fin.ext hi1.symm)

/-- What a write-back of the low-pass window writes is its block of the low-pass result matrix. -/
theorem low_flushed (c : Dev nD) (t : Fin cfg0.N) (hf : (cfg0.win 3).flush t = true) :
    (dats m 0 c).flushed 3 t = ((cfg0.win 3).blk t).view.read (Elt Ideal) (lowMatrix m c) := by
  have h31 : t.val % 32 = 31 := (flush0_3 t).mp hf
  obtain ⟨-, -, -, -, -, -, e0, e1, -⟩ := Blocks.idx_facts t
  show (cfg0.win 3).cut (grid0.coords t) ((dats m 0 c).after 3 t) = _
  rw [after0_3]
  funext j
  rw [View.read_apply]
  refine low_tile m c t h31 _ _ ?_ ?_
  · show win0_3.index t (0 : Fin 2) * 2048 + 1 * (j 0).val = (j 0).val; omega
  · show win0_3.index t (1 : Fin 2) * 1024 + 1 * (j 1).val = t.val / 32 * 1024 + (j 1).val; omega

/-- An index of the low-pass result matrix is in point t's block iff each coordinate is in the block's range. -/
theorem low_mem_blk (t : Fin cfg0.N) (i : S2048x4096.Idx) :
    i ∈ ((cfg0.win 3).blk t).view.set ↔ ∀ a : Fin 2, win0_3.index t a * S2048x1024.size a ≤ (i a).val ∧ (i a).val < win0_3.index t a * S2048x1024.size a + S2048x1024.size a := by
  show i ∈ ((View.whole main_v1_0).slice (win0_3.rect t)).set ↔ _
  rw [View.set_slice_whole, Rect.mem_set_unit]
  exact Iff.rfl

/-- Every entry of the low-pass result matrix is written back: column n by the last point of column tile n / 1024. -/
theorem low_cover (i : S2048x4096.Idx) :
    ∃ t : Fin cfg0.N, (cfg0.win 3).flush t = true ∧ i ∈ ((cfg0.win 3).blk t).view.set := by
  have hN : cfg0.N = 128 := N_0
  have hi0 : (i 0).val < 2048 := (i 0).isLt
  have hi1 : (i 1).val < 4096 := (i 1).isLt
  have hlt : (i 1).val / 1024 * 32 + 31 < cfg0.N := by omega
  obtain ⟨-, -, -, -, -, -, e0, e1, -⟩ := Blocks.idx_facts ⟨(i 1).val / 1024 * 32 + 31, hlt⟩
  dsimp only at e0 e1
  refine ⟨⟨(i 1).val / 1024 * 32 + 31, hlt⟩, (flush0_3 _).mpr (by dsimp only; omega), ?_⟩
  rw [low_mem_blk]
  intro a
  match a with
  | ⟨0, _⟩ =>
    show win0_3.index ⟨(i 1).val / 1024 * 32 + 31, hlt⟩ (0 : Fin 2) * 2048 ≤ (i 0).val ∧ (i 0).val < win0_3.index ⟨(i 1).val / 1024 * 32 + 31, hlt⟩ (0 : Fin 2) * 2048 + 2048
    omega
  | ⟨1, _⟩ =>
    show win0_3.index ⟨(i 1).val / 1024 * 32 + 31, hlt⟩ (1 : Fin 2) * 1024 ≤ (i 1).val ∧ (i 1).val < win0_3.index ⟨(i 1).val / 1024 * 32 + 31, hlt⟩ (1 : Fin 2) * 1024 + 1024
    omega

/-- So the low-pass result array ends holding the low-pass result matrix. -/
theorem low_final (c : Dev nD) : (dats m 0 c).arrAt 3 cfg0.N = lowMatrix m c :=
  (dats m 0 c).arrAt_eq_of_cover 3 (lowMatrix m c) (fun t hf => low_flushed m c t hf) low_cover

/-- The low-pass result matrix with its rows split back into 32 x 64 is the specification's result of the input as given. -/
theorem low_split (c : Dev nD) :
    shapeCast S32x64x4096 (lowMatrix m c) shapeCasts_S2048x4096_S32x64x4096
      = result (m ((c : Thread nD τ).loc main_arg0)) (m ((c : Thread nD τ).loc main_arg1)) := by
  funext i
  obtain ⟨p, q, n, rfl⟩ : ∃ (p : Fin 32) (q : Fin 64) (n : Fin 4096), i = ix3 p q n := ⟨i 0, i 1, i 2, eq_ix3 i⟩
  have hp := p.isLt
  have hq := q.isLt
  refine (Cert.LibFlatten.shapeCast_nc_abc_apply (lowMatrix m c) shapeCasts_S2048x4096_S32x64x4096 p q n ⟨p.val * 64 + q.val, by omega⟩ rfl).trans ?_
  unfold lowMatrix entry result
  refine Finset.sum_congr rfl fun l _ => ?_
  refine congrArg₂ (· * ·) ?_ ?_
  · rw [Blocks.entry_signal]
    exact Cert.LibFlatten.shapeCast_abc_nc_apply _ shapeCasts_S32x64x8192_S2048x8192 p q l ⟨p.val * 64 + q.val, by omega⟩ rfl
  · rw [V_main_arg1]

/-- The high-pass result in matrix form: entry (r, n) is signal row r contracted with row n of the high-pass filter. -/
def highMatrix (c : Dev nD) : S2048x4096.Idx → EReal :=
  fun i => entry (V m c main_v0) (V m c main_arg2) (i 0) (i 1)

/-- A finished high-pass tile: after the last band of column tile t / 32 the total at j is the result matrix at
    (row of j, t / 32 * 1024 + column of j). -/
theorem high_tile (c : Dev nD) (t : Fin cfg0.N) (h31 : t.val % 32 = 31) (j : S2048x1024.Idx) (i : S2048x4096.Idx)
    (hi0 : (i 0).val = (j 0).val) (hi1 : (i 1).val = t.val / 32 * 1024 + (j 1).val) :
    (outsAt0 m c t.val t.isLt).2 j = highMatrix m c i := by
  have hN : cfg0.N = 128 := N_0
  have ht := t.isLt
  obtain ⟨r, q, rfl⟩ : ∃ (r : Fin 2048) (q : Fin 1024), j = ix2 r q := ⟨j 0, j 1, eq_ix2 j⟩
  have et : t.val = (⟨t.val / 32, by omega⟩ : Fin 4).val * 32 + 31 := by dsimp only; omega
  refine (congrFun (congrArg Prod.snd (outsAt0_congr m c et t.isLt (by dsimp only; omega))) (ix2 r q)).trans ?_
  refine (Totals.high_last m c ⟨t.val / 32, by omega⟩ r q _).trans ?_
  unfold highMatrix
  exact congrArg₂ (entry _ _) (Fin.ext hi0.symm) (Fin.ext hi1.symm)

/-- What a write-back of the high-pass window writes is its block of the high-pass result matrix. -/
theorem high_flushed (c : Dev nD) (t : Fin cfg0.N) (hf : (cfg0.win 4).flush t = true) :
    (dats m 0 c).flushed 4 t = ((cfg0.win 4).blk t).view.read (Elt Ideal) (highMatrix m c) := by
  have h31 : t.val % 32 = 31 := (flush0_4 t).mp hf
  obtain ⟨-, -, -, -, -, -, -, -, e0, e1⟩ := Blocks.idx_facts t
  show (cfg0.win 4).cut (grid0.coords t) ((dats m 0 c).after 4 t) = _
  rw [after0_4]
  funext j
  rw [View.read_apply]
  refine high_tile m c t h31 _ _ ?_ ?_
  · show win0_4.index t (0 : Fin 2) * 2048 + 1 * (j 0).val = (j 0).val; omega
  · show win0_4.index t (1 : Fin 2) * 1024 + 1 * (j 1).val = t.val / 32 * 1024 + (j 1).val; omega

/-- An index of the high-pass result matrix is in point t's block iff each coordinate is in the block's range. -/
theorem high_mem_blk (t : Fin cfg0.N) (i : S2048x4096.Idx) :
    i ∈ ((cfg0.win 4).blk t).view.set ↔ ∀ a : Fin 2, win0_4.index t a * S2048x1024.size a ≤ (i a).val ∧ (i a).val < win0_4.index t a * S2048x1024.size a + S2048x1024.size a := by
  show i ∈ ((View.whole main_v1_1).slice (win0_4.rect t)).set ↔ _
  rw [View.set_slice_whole, Rect.mem_set_unit]
  exact Iff.rfl

/-- Every entry of the high-pass result matrix is written back: column n by the last point of column tile n / 1024. -/
theorem high_cover (i : S2048x4096.Idx) :
    ∃ t : Fin cfg0.N, (cfg0.win 4).flush t = true ∧ i ∈ ((cfg0.win 4).blk t).view.set := by
  have hN : cfg0.N = 128 := N_0
  have hi0 : (i 0).val < 2048 := (i 0).isLt
  have hi1 : (i 1).val < 4096 := (i 1).isLt
  have hlt : (i 1).val / 1024 * 32 + 31 < cfg0.N := by omega
  obtain ⟨-, -, -, -, -, -, -, -, e0, e1⟩ := Blocks.idx_facts ⟨(i 1).val / 1024 * 32 + 31, hlt⟩
  dsimp only at e0 e1
  refine ⟨⟨(i 1).val / 1024 * 32 + 31, hlt⟩, (flush0_4 _).mpr (by dsimp only; omega), ?_⟩
  rw [high_mem_blk]
  intro a
  match a with
  | ⟨0, _⟩ =>
    show win0_4.index ⟨(i 1).val / 1024 * 32 + 31, hlt⟩ (0 : Fin 2) * 2048 ≤ (i 0).val ∧ (i 0).val < win0_4.index ⟨(i 1).val / 1024 * 32 + 31, hlt⟩ (0 : Fin 2) * 2048 + 2048
    omega
  | ⟨1, _⟩ =>
    show win0_4.index ⟨(i 1).val / 1024 * 32 + 31, hlt⟩ (1 : Fin 2) * 1024 ≤ (i 1).val ∧ (i 1).val < win0_4.index ⟨(i 1).val / 1024 * 32 + 31, hlt⟩ (1 : Fin 2) * 1024 + 1024
    omega

/-- So the high-pass result array ends holding the high-pass result matrix. -/
theorem high_final (c : Dev nD) : (dats m 0 c).arrAt 4 cfg0.N = highMatrix m c :=
  (dats m 0 c).arrAt_eq_of_cover 4 (highMatrix m c) (fun t hf => high_flushed m c t hf) high_cover

/-- The high-pass result matrix with its rows split back into 32 x 64 is the specification's result of the input as given. -/
theorem high_split (c : Dev nD) :
    shapeCast S32x64x4096 (highMatrix m c) shapeCasts_S2048x4096_S32x64x4096
      = result (m ((c : Thread nD τ).loc main_arg0)) (m ((c : Thread nD τ).loc main_arg2)) := by
  funext i
  obtain ⟨p, q, n, rfl⟩ : ∃ (p : Fin 32) (q : Fin 64) (n : Fin 4096), i = ix3 p q n := ⟨i 0, i 1, i 2, eq_ix3 i⟩
  have hp := p.isLt
  have hq := q.isLt
  refine (Cert.LibFlatten.shapeCast_nc_abc_apply (highMatrix m c) shapeCasts_S2048x4096_S32x64x4096 p q n ⟨p.val * 64 + q.val, by omega⟩ rfl).trans ?_
  unfold highMatrix entry result
  refine Finset.sum_congr rfl fun l _ => ?_
  refine congrArg₂ (· * ·) ?_ ?_
  · rw [Blocks.entry_signal]
    exact Cert.LibFlatten.shapeCast_abc_nc_apply _ shapeCasts_S32x64x8192_S2048x8192 p q l ⟨p.val * 64 + q.val, by omega⟩ rfl
  · rw [V_main_arg2]

end Cert.KernelIdeal.Arrays

end
-- ==== Proof.Results.lean ====
/-
  The idealized kernel's run, with its two results named.

  Every weakly fair execution of the program ends with the low-pass result holding, at (p, q, n), the contraction of row
  (p, q) of the input with row n of the low-pass filter, the high-pass result likewise with the high-pass filter, and
  the three inputs as they were. The results are the two result matrices the kernel leaves, with their 2048 rows split
  back into 32 x 64 by the program's last two lines.
-/
import proofs.«168189_j3882650435603_1_alg».proof.Proof.Arrays

set_option maxRecDepth 16384

noncomputable section

open Idealize.ShloMosaic Idealize.ShloMosaic.TcCoe Idealize.SL.Sem
open Idealize.ShloMosaic.Pipeline (Dat)

namespace Cert.KernelIdeal.Results

open Cert.KernelIdeal Cert.KernelIdeal.Gen Cert.FilterBank

variable (m : (ℓ : Loc nD τ sig) → Buf (Elt Ideal) ℓ) (ρ : Dev nD → PrngReg)

/-- The low-pass result the program returns: the kernel's low-pass result matrix, rows split into 32 x 64. -/
theorem low_out (c : Dev nD) :
    Pipeline.afterTail₀ cfgs (dats m) 0 (V0 m) [hostOps1] c main_v2
      = result (m ((c.tc : Thread nD τ).loc main_arg0)) (m ((c.tc : Thread nD τ).loc main_arg1)) := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1_0)
      = Arrays.lowMatrix m c :=
    (Pipeline.withArrays_arr spec0 launch0.win.arr_inj c _ _ 3).trans (Arrays.low_final m c)
  rw [e]
  exact Arrays.low_split m c

/-- The high-pass result the program returns: the kernel's high-pass result matrix, rows split into 32 x 64. -/
theorem high_out (c : Dev nD) :
    Pipeline.afterTail₀ cfgs (dats m) 0 (V0 m) [hostOps1] c main_v3
      = result (m ((c.tc : Thread nD τ).loc main_arg0)) (m ((c.tc : Thread nD τ).loc main_arg2)) := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v1_1)
      = Arrays.highMatrix m c :=
    (Pipeline.withArrays_arr spec0 launch0.win.arr_inj c _ _ 4).trans (Arrays.high_final m c)
  rw [e]
  exact Arrays.high_split m c

/-- The run: both results at the specification's result of the inputs, the inputs unchanged. -/
theorem run : θ_run defs (onTc (τ := τ) (main (F := Ideal))) ⟨m, fun _ => 0, ρ⟩ fun r => ∀ c : Dev nD,
      r.2.mem ((c.tc : Thread nD τ).loc main_v2) = result (m ((c.tc : Thread nD τ).loc main_arg0)) (m ((c.tc : Thread nD τ).loc main_arg1))
      ∧ r.2.mem ((c.tc : Thread nD τ).loc main_v3) = result (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v2 (Pipeline.mem_restRefs_of main_v2 (by decide) (by decide))).trans (low_out m c),
      ((h c).2 main_v3 (Pipeline.mem_restRefs_of main_v3 (by decide) (by decide))).trans (high_out m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Results

end
-- ==== Proof.RefSide.lean ====
/-
  The reference's two results read at an index: each is one contraction of a row of the input with a row of a filter
  matrix, over all 8192 samples at once.
-/
import proofs.«168189_j3882650435603_1_alg».proof.Proof.Gen.ReferenceIdeal.Read
import proofs.«168189_j3882650435603_1_alg».proof.Proof.Spec

noncomputable section

open Idealize.ShloMosaic Idealize.ShloMosaic.ValueIdx

namespace Cert.ReferenceIdeal.RefSide

open Cert.ReferenceIdeal Cert.ReferenceIdeal.Read Cert.FilterBank

/-- The low-pass result of the reference is the specification's result of the input and the low-pass filter. -/
theorem low_eq (x0 : (⟨S32x64x8192, .f32⟩ : BufTy).Contents (Elt Ideal)) (x1 : (⟨S4096x8192, .f32⟩ : BufTy).Contents (Elt Ideal)) :
    val_main_v0 (F := Ideal) x0 x1 = result x0 x1 := by
  funext i
  rw [val_main_v0_apply]
  have el : ∀ k : Fin 8192, lidx_main_v0 i k = ix3 (i 0) (i 1) k := fun k => funext fun a => by
    match a with
    | ⟨0, _⟩ => rfl
    | ⟨1, _⟩ => rfl
    | ⟨2, _⟩ => rfl
  have er : ∀ k : Fin 8192, ridx_main_v0 i k = ix2 (i 2) k := fun k => funext fun a => by
    match a with
    | ⟨0, _⟩ => rfl
    | ⟨1, _⟩ => rfl
  unfold result
  exact Finset.sum_congr rfl fun k _ => congrArg₂ (· * ·) (congrArg x0 (el k)) (congrArg x1 (er k))

/-- The high-pass result of the reference is the specification's result of the input and the high-pass filter. -/
theorem high_eq (x0 : (⟨S32x64x8192, .f32⟩ : BufTy).Contents (Elt Ideal)) (x2 : (⟨S4096x8192, .f32⟩ : BufTy).Contents (Elt Ideal)) :
    val_main_v1 (F := Ideal) x0 x2 = result x0 x2 := by
  funext i
  rw [val_main_v1_apply]
  have el : ∀ k : Fin 8192, lidx_main_v1 i k = ix3 (i 0) (i 1) k := fun k => funext fun a => by
    match a with
    | ⟨0, _⟩ => rfl
    | ⟨1, _⟩ => rfl
    | ⟨2, _⟩ => rfl
  have er : ∀ k : Fin 8192, ridx_main_v1 i k = ix2 (i 2) k := fun k => funext fun a => by
    match a with
    | ⟨0, _⟩ => rfl
    | ⟨1, _⟩ => rfl
  unfold result
  exact Finset.sum_congr rfl fun k _ => congrArg₂ (· * ·) (congrArg x0 (el k)) (congrArg x2 (er k))

end Cert.ReferenceIdeal.RefSide

end
-- ==== Proof.lean ====
/-
  One analysis step of a one-dimensional wavelet transform, as two matrix products: every row of a 32 x 64 x 8192
  input is contracted with the 4096 rows of a low-pass filter matrix and of a high-pass filter matrix, giving two
  32 x 64 x 4096 results. The two filter matrices are inputs; nothing below depends on their entries.

  The kernel merges the input's two leading axes into 2048 rows, computes each result in four column tiles of 1024,
  each tile by accumulating, from zero, the products of 32 successive bands of 256 samples, and splits the rows back.
  The reference contracts over all 8192 samples at once. On the extended reals the two agree entry by entry: a finite
  sum does not depend on how its terms are grouped into bands, because addition there is commutative and associative,
  at infinite values too; rounding the operands to a shorter float format is the identity; and merging and splitting
  axes moves no entry out of its row-major place. So neither side needs the inputs to be finite.

  Proof/Spec.lean states the result and the band-by-band law; Proof/Body.lean, Proof/Steps.lean, Proof/Band.lean and
  Proof/Blocks.lean read one grid step; Proof/Totals.lean is the induction over the bands; Proof/Arrays.lean and
  Proof/Results.lean carry the finished tiles to the returned arrays; Proof/RefSide.lean reads the reference. The three
  programs terminate without fault and leave their inputs unchanged: the kernel's two readings by their generated
  frame certificates, the reference by its generated run. The idealization rewrote nothing, so it preserves the kernel.
-/
import proofs.«168189_j3882650435603_1_alg».proof.Defs
import proofs.«168189_j3882650435603_1_alg».proof.Proof.Gen.Kernel
import proofs.«168189_j3882650435603_1_alg».proof.Proof.Gen.Kernel.Frame
import proofs.«168189_j3882650435603_1_alg».proof.Proof.Gen.KernelIdeal
import proofs.«168189_j3882650435603_1_alg».proof.Proof.Gen.KernelIdeal.Frame
import proofs.«168189_j3882650435603_1_alg».proof.Proof.Gen.ReferenceIdeal
import proofs.«168189_j3882650435603_1_alg».proof.Proof.Gen.ReferenceIdeal.Read
import proofs.«168189_j3882650435603_1_alg».proof.Proof.Gen.Pre_finite_inputs
import proofs.«168189_j3882650435603_1_alg».proof.Proof.Results
import proofs.«168189_j3882650435603_1_alg».proof.Proof.RefSide

noncomputable section

namespace Cert.Proof

open Idealize.ShloMosaic Idealize.SL.Sem

/-- Every execution of the kernel as printed terminates without fault, its inputs unchanged. -/
theorem frame_kernel : Cert.frame_Kernel := fun m ρ _ => Cert.Kernel.Gen.frame m ρ

/-- The same of the kernel read over the extended reals. -/
theorem frame_kernel_ideal : Cert.frame_KernelIdeal := fun m ρ _ => Cert.KernelIdeal.Gen.frame m ρ

/-- The same of the reference: its run, with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From inputs that agree, both programs end with both results at the same function of the inputs: each entry the
    contraction of an input row with a filter row — accumulated band by band on one side, at once on the other. -/
theorem algebraic : Cert.algebraic_KernelIdeal_ReferenceIdeal := by
  intro m ρ m' ρ' _ hagree
  refine ⟨fun c => Cert.FilterBank.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.FilterBank.result (m ((c.tc : Thread Cert.KernelIdeal.nD Cert.KernelIdeal.τ).loc Cert.KernelIdeal.main_arg0)) (m ((c.tc : Thread Cert.KernelIdeal.nD Cert.KernelIdeal.τ).loc Cert.KernelIdeal.main_arg2)),
    Cert.KernelIdeal.Results.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v0_eq, Cert.ReferenceIdeal.RefSide.low_eq, (hagree c).1, (hagree c).2.1]
  · rw [(h c).2.1, Cert.ReferenceIdeal.Read.val_main_v1_eq, Cert.ReferenceIdeal.RefSide.high_eq, (hagree c).1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
